-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x32x256 : Shape := ⟨3, ![128, 32, 256]⟩
abbrev S256x1024 : Shape := ⟨2, ![256, 1024]⟩
abbrev S1024 : Shape := ⟨1, ![1024]⟩
abbrev S1024x256 : Shape := ⟨2, ![1024, 256]⟩
abbrev S256 : Shape := ⟨1, ![256]⟩
abbrev S_ : Shape := ⟨0, ![]⟩

class Facts : Prop where
  bcast_S_S128x32x256 : S_.BroadcastsInDim S128x32x256 (![] : Fin 0 → Fin S128x32x256.rank)
  reducesTo_S128x32x256_S_d0_1_2 : S128x32x256.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S128x32x256 .f32) (main_arg1 : FVec F S256x1024 .f32) (main_arg2 : FVec F S1024 .f32) (main_arg3 : FVec F S1024x256 .f32) (main_arg4 : FVec F S256 .f32) : IVec S_ 1 :=
  let main_v0 : FVec F S128x32x256 .f32 := Host.absf main_arg0
  let main_cst : FVec F S_ .f32 := constant S_ .f32 0x7F800000#32
  let main_v1 : FVec F S128x32x256 .f32 := broadcastInDim S128x32x256 ![] bcast_S_S128x32x256 main_cst
  let main_v2 : IVec S128x32x256 1 := cmpf .olt main_v0 main_v1
  let main_c : IVec S_ 1 := constantI S_ 1 1#1
  let main_v3 : IVec S_ 1 := (fun x v => Host.reduce IntOp.andi x v reducesTo_S128x32x256_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_v13 main_v16
-- ==== Kernel.lean ====
abbrev S128x32x256 : Shape := ⟨3, ![128, 32, 256]⟩
abbrev S256x1024 : Shape := ⟨2, ![256, 1024]⟩
abbrev S1024 : Shape := ⟨1, ![1024]⟩
abbrev S1024x256 : Shape := ⟨2, ![1024, 256]⟩
abbrev S256 : Shape := ⟨1, ![256]⟩
abbrev S4x32x256 : Shape := ⟨3, ![4, 32, 256]⟩
abbrev S4x32x1024 : Shape := ⟨3, ![4, 32, 1024]⟩
abbrev S4x8x256 : Shape := ⟨3, ![4, 8, 256]⟩
abbrev S4x8x1x256 : Shape := ⟨4, ![4, 8, 1, 256]⟩
abbrev S4x1x32x256 : Shape := ⟨4, ![4, 1, 32, 256]⟩
abbrev S4x8x32x256 : Shape := ⟨4, ![4, 8, 32, 256]⟩
abbrev S1024x1024 : Shape := ⟨2, ![1024, 1024]⟩
abbrev S1x1024 : Shape := ⟨2, ![1, 1024]⟩
abbrev S4x8x32x1024 : Shape := ⟨4, ![4, 8, 32, 1024]⟩
abbrev S128x1024 : Shape := ⟨2, ![128, 1024]⟩
abbrev S128x256 : Shape := ⟨2, ![128, 256]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S128x32x256, .f32⟩
  | .hbm, ⟨1, _⟩ => ⟨S256x1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S128x32x256, .f32⟩
  | .local _ .vmem, ⟨0, _⟩ => ⟨S4x32x256, .f32⟩
  | .local _ .vmem, ⟨1, _⟩ => ⟨S4x32x256, .f32⟩
  | .local _ .vmem, ⟨2, _⟩ => ⟨S256x1024, .f32⟩
  | .local _ .vmem, ⟨3, _⟩ => ⟨S1024, .f32⟩
  | .local _ .vmem, ⟨4, _⟩ => ⟨S1024x256, .f32⟩
  | .local _ .vmem, ⟨5, _⟩ => ⟨S256, .f32⟩
  | .local _ .vmem, ⟨6, _⟩ => ⟨S4x32x256, .f32⟩
  | .local _ .vmem, ⟨7, _⟩ => ⟨S4x32x256, .f32⟩
  | .local _ .vmem, ⟨8, _⟩ => ⟨S4x32x1024, .f32⟩
  | _, _ => ⟨S128x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v7 : BitVec 32 := Scalar.addi c0_i32 c4_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32 : BitVec 32 := 8#32
  let v22 : BitVec 32 := Scalar.muli arg8 c8_i32
  v22
def k0_off1 (k0_t1 : Fin k0_t1_loop.trips) : Fin 3 → Nat :=
  let c0_19 : Index := 0#32
  let c0_i32 : BitVec 32 := 0#32
  let c1_i32 : BitVec 32 := 1#32
  let arg8 : BitVec 32 := Scf.iv c0_i32 c1_i32 k0_t1
  let c8_i32 : BitVec 32 := 8#32
  let v22 : BitVec 32 := Scalar.muli arg8 c8_i32
  let v23 : BitVec 32 := v22
  let v24 : Index := Scalar.indexCast v23
  let c0_20 : Index := 0#32
  ![0, v24.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S4x32x1024_S4x32x1024_0_0_0 : ∀ a, (![0, 0, 0] : Fin 3 → Nat) a + S4x32x1024.size a ≤ S4x32x1024.size a
  h_S4x32x1024 : 0 < S4x32x1024.numel
  shapeCasts_S4x32x1024_S4x32x1024 : S4x32x1024.ShapeCasts S4x32x1024
  inb_S4x32x256_S4x32x256_0_0_0 : ∀ a, (![0, 0, 0] : Fin 3 → Nat) a + S4x32x256.size a ≤ S4x32x256.size a
  h_S4x32x256 : 0 < S4x32x256.numel
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  h_S4x8x256 : 0 < S4x8x256.numel
  shapeCasts_S4x8x256_S4x8x1x256 : S4x8x256.ShapeCasts S4x8x1x256
  shapeCasts_S4x32x256_S4x1x32x256 : S4x32x256.ShapeCasts S4x1x32x256
  broadcasts_S4x8x1x256_S4x8x32x256 : S4x8x1x256.Broadcasts S4x8x32x256
  broadcasts_S4x1x32x256_S4x8x32x256 : S4x1x32x256.Broadcasts S4x8x32x256
  shapeCasts_S4x8x32x256_S1024x256 : S4x8x32x256.ShapeCasts S1024x256
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x1024_S4x8x32x1024 : S1024x1024.ShapeCasts S4x8x32x1024
  reduces_S4x8x32x1024_S4x32x1024 : S4x8x32x1024.Reduces [1] S4x32x1024
  shapeCasts_S4x32x1024_S128x1024 : S4x32x1024.ShapeCasts S128x1024
  inb_S1024x256_S1024x256_0_0 : ∀ a, (![0, 0] : Fin 2 → Nat) a + S1024x256.size a ≤ S1024x256.size a
  h_S1024x256 : 0 < S1024x256.numel
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  shapeCasts_S128x256_S4x32x256 : S128x256.ShapeCasts S4x32x256
  dot_S1024x256_S256x1024_S1024x1024_1_0_0_1_n_n_wf : DotDims.WF S1024x256 S256x1024 S1024x1024 [1] [0] [0] [1] [] []
  dot_S128x1024_S1024x256_S128x256_1_0_0_1_n_n_wf : DotDims.WF S128x1024 S1024x256 S128x256 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S4x8x256.size a ≤ S4x32x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x32x256.size a ≤ S128x32x256.size a
  hwx0_0 : ∀ i : grid0.Coords, EltTy.bits .f32 = 32 ∨ (Rect.block (s := S128x32x256) S4x32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x32x256.size a ≤ S128x32x256.size a
  hwx0_5 : ∀ i : grid0.Coords, EltTy.bits .f32 = 32 ∨ (Rect.block (s := S128x32x256) S4x32x256.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S128x1024_S1024x256_S128x256_1_0_0_1_n_n : DotDims S128x1024 S1024x256 S128x256 where
  lhsContracting := [1]
  rhsContracting := [0]
  lhsNonContracting := [0]
  rhsNonContracting := [1]
  lhsBatch := []
  rhsBatch := []
  wf := dot_S128x1024_S1024x256_S128x256_1_0_0_1_n_n_wf

abbrev win0_0 : Pipeline.Window sig grid0 :=
  Pipeline.Window.ofSpec (Memref.whole main_arg0) S4x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4x32x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x32x256 : Shape := ⟨3, ![128, 32, 256]⟩
abbrev S256x1024 : Shape := ⟨2, ![256, 1024]⟩
abbrev S1024 : Shape := ⟨1, ![1024]⟩
abbrev S1024x256 : Shape := ⟨2, ![1024, 256]⟩
abbrev S256 : Shape := ⟨1, ![256]⟩
abbrev S128x32x1x256 : Shape := ⟨4, ![128, 32, 1, 256]⟩
abbrev S128x1x32x256 : Shape := ⟨4, ![128, 1, 32, 256]⟩
abbrev S128x32x32x256 : Shape := ⟨4, ![128, 32, 32, 256]⟩
abbrev S128x32x32x1024 : Shape := ⟨4, ![128, 32, 32, 1024]⟩
abbrev S1x1x1x1024 : Shape := ⟨4, ![1, 1, 1, 1024]⟩
abbrev S_ : Shape := ⟨0, ![]⟩
abbrev S1x1x1x256 : Shape := ⟨4, ![1, 1, 1, 256]⟩

abbrev nBuf : Space → Nat
  | .hbm => 23
  | .vmem => 0
  | .smem => 0
  | _ => 0

abbrev bufTy : (tb : Table) → Fin (tcTables nBuf tb) → BufTy
  | .hbm, ⟨0, _⟩ => ⟨S128x32x256, .f32⟩
  | .hbm, ⟨1, _⟩ => ⟨S256x1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S128x32x1x256, .f32⟩
  | .hbm, ⟨6, _⟩ => ⟨S128x1x32x256, .f32⟩
  | .hbm, ⟨7, _⟩ => ⟨S128x32x32x256, .f32⟩
  | .hbm, ⟨8, _⟩ => ⟨S128x32x32x256, .f32⟩
  | .hbm, ⟨9, _⟩ => ⟨S128x32x32x256, .f32⟩
  | .hbm, ⟨10, _⟩ => ⟨S128x32x32x1024, .f32⟩
  | .hbm, ⟨11, _⟩ => ⟨S1x1x1x1024, .f32⟩
  | .hbm, ⟨12, _⟩ => ⟨S128x32x32x1024, .f32⟩
  | .hbm, ⟨13, _⟩ => ⟨S128x32x32x1024, .f32⟩
  | .hbm, ⟨14, _⟩ => ⟨S_, .f32⟩
  | .hbm, ⟨15, _⟩ => ⟨S128x32x32x1024, .f32⟩
  | .hbm, ⟨16, _⟩ => ⟨S128x32x32x1024, .f32⟩
  | .hbm, ⟨17, _⟩ => ⟨S128x32x32x256, .f32⟩
  | .hbm, ⟨18, _⟩ => ⟨S1x1x1x256, .f32⟩
  | .hbm, ⟨19, _⟩ => ⟨S128x32x32x256, .f32⟩
  | .hbm, ⟨20, _⟩ => ⟨S128x32x32x256, .f32⟩
  | .hbm, ⟨21, _⟩ => ⟨S_, .f32⟩
  | .hbm, ⟨22, _⟩ => ⟨S128x32x256, .f32⟩
  | _, _ => ⟨S128x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S128x32x256_S128x32x1x256_0_1_3 : S128x32x256.BroadcastsInDim S128x32x1x256 (![0, 1, 3] : Fin 3 → Fin S128x32x1x256.rank)
  bcast_S128x32x256_S128x1x32x256_0_2_3 : S128x32x256.BroadcastsInDim S128x1x32x256 (![0, 2, 3] : Fin 3 → Fin S128x1x32x256.rank)
  bcast_S128x32x1x256_S128x32x32x256_0_1_2_3 : S128x32x1x256.BroadcastsInDim S128x32x32x256 (![0, 1, 2, 3] : Fin 4 → Fin S128x32x32x256.rank)
  bcast_S128x1x32x256_S128x32x32x256_0_1_2_3 : S128x1x32x256.BroadcastsInDim S128x32x32x256 (![0, 1, 2, 3] : Fin 4 → Fin S128x32x32x256.rank)
  bcast_S1024_S1x1x1x1024_3 : S1024.BroadcastsInDim S1x1x1x1024 (![3] : Fin 1 → Fin S1x1x1x1024.rank)
  bcast_S1x1x1x1024_S128x32x32x1024_0_1_2_3 : S1x1x1x1024.BroadcastsInDim S128x32x32x1024 (![0, 1, 2, 3] : Fin 4 → Fin S128x32x32x1024.rank)
  bcast_S_S128x32x32x1024 : S_.BroadcastsInDim S128x32x32x1024 (![] : Fin 0 → Fin S128x32x32x1024.rank)
  bcast_S256_S1x1x1x256_3 : S256.BroadcastsInDim S1x1x1x256 (![3] : Fin 1 → Fin S1x1x1x256.rank)
  bcast_S1x1x1x256_S128x32x32x256_0_1_2_3 : S1x1x1x256.BroadcastsInDim S128x32x32x256 (![0, 1, 2, 3] : Fin 4 → Fin S128x32x32x256.rank)
  reducesTo_S128x32x32x256_S128x32x256_d1 : S128x32x32x256.ReducesTo [1] S128x32x256
  h_S_ : 0 < S_.numel
  dot_S128x32x32x256_S256x1024_S128x32x32x1024_3_0_012_1_n_n_wf : DotDims.WF S128x32x32x256 S256x1024 S128x32x32x1024 [3] [0] [0, 1, 2] [1] [] []
  dot_S128x32x32x1024_S1024x256_S128x32x32x256_3_0_012_1_n_n_wf : DotDims.WF S128x32x32x1024 S1024x256 S128x32x32x256 [3] [0] [0, 1, 2] [1] [] []

variable [Facts₀]

def dot_S128x32x32x256_S256x1024_S128x32x32x1024_3_0_012_1_n_n : DotDims S128x32x32x256 S256x1024 S128x32x32x1024 where
  lhsContracting := [3]
  rhsContracting := [0]
  lhsNonContracting := [0, 1, 2]
  rhsNonContracting := [1]
  lhsBatch := []
  rhsBatch := []
  wf := dot_S128x32x32x256_S256x1024_S128x32x32x1024_3_0_012_1_n_n_wf
def dot_S128x32x32x1024_S1024x256_S128x32x32x256_3_0_012_1_n_n : DotDims S128x32x32x1024 S1024x256 S128x32x32x256 where
  lhsContracting := [3]
  rhsContracting := [0]
  lhsNonContracting := [0, 1, 2]
  rhsNonContracting := [1]
  lhsBatch := []
  rhsBatch := []
  wf := dot_S128x32x32x1024_S1024x256_S128x32x32x256_3_0_012_1_n_n_wf

class Facts : Prop extends Facts₀ where

variable [Facts]
-- ==== Proof.Trips.lean ====
/-
  What one grid step of the kernel leaves in its output block, as a pure term, for any float instance.

  The body zero-fills a scratch accumulator `hsum[4, 32, 1024]`, then runs four trips of a counted loop; trip `k`
  loads rows `8k … 8k+7` of the staged block of `x`, forms the rectified hidden activations of those rows against
  all thirty-two rows, sums them over the eight rows and ADDS the result into `hsum` (which it loads back); after
  the loop one matrix product of `hsum` with `W2`, plus `32 · b2`, is stored as the output block.

  So the scratch after `k` trips is a recursion: `acc 0` is the zero fill, `acc (k+1)` is trip `k`'s payload of
  `acc k`; and the output block is the final payload of `acc 4`. This module reads that off the generated run: the
  loop's trip is opened once (`trip_piece`), the pieces of the trips before `k` are folded by induction
  (`canon_trips`), and the run's one output piece is read back (`block_eq`).
-/
import proofs.«137564_j65609920413983_2_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F]

/-- The three zero offsets are the zero function (what the whole-block lemmas ask). -/
theorem zero3 : (![0, 0, 0] : Fin 3 → Nat) = fun _ => 0 :=
  funext fun a => by match a with | ⟨0, _⟩ => rfl | ⟨1, _⟩ => rfl | ⟨2, _⟩ => rfl
theorem zero2 : (![0, 0] : Fin 2 → Nat) = fun _ => 0 :=
  funext fun a => by match a with | ⟨0, _⟩ => rfl | ⟨1, _⟩ => rfl
theorem zero1 : (![0] : Fin 1 → Nat) = fun _ => 0 :=
  funext fun a => by match a with | ⟨0, _⟩ => rfl

/-- The loop runs four trips. -/
theorem trips_eq : k0_t1_loop.trips = 4 := by decide

/-- Rows `8k … 8k+7` (the second axis) of the staged block of `x`, as trip `k` loads them. -/
def rowsOf (x0 : Vec F S4x32x256 .f32) (k : Fin k0_t1_loop.trips) : Vec F S4x8x256 .f32 :=
  View.ld x0 (Rect.unit (s := S4x32x256) (k0_off1 k) S4x8x256.size (k0_off1_inb k))

/-- The scratch accumulator after `k` trips: the zero fill, then one trip's payload of the contents before it. -/
def acc (x0 : Vec F S4x32x256 .f32) (x1 : Vec F S256x1024 .f32) (x2 : Vec F S1024 .f32) : ℕ → Vec F S4x32x1024 .f32
  | 0 => k0_pay1
  | k + 1 => if h : k < k0_t1_loop.trips then k0_pay2 x0 x1 (rowsOf x0 ⟨k, h⟩) x2 (acc x0 x1 x2 k) else acc x0 x1 x2 k

theorem acc_zero (x0 : Vec F S4x32x256 .f32) (x1 : Vec F S256x1024 .f32) (x2 : Vec F S1024 .f32) :
    acc x0 x1 x2 0 = k0_pay1 := rfl

theorem acc_succ (x0 : Vec F S4x32x256 .f32) (x1 : Vec F S256x1024 .f32) (x2 : Vec F S1024 .f32) (k : Fin k0_t1_loop.trips) :
    acc x0 x1 x2 (k.val + 1) = k0_pay2 x0 x1 (rowsOf x0 k) x2 (acc x0 x1 x2 k.val) := by
  rw [acc, dif_pos k.isLt]

section Run

variable (𝒱 : Variants) (c : Dev nD) (bd : Option 𝒱.V) (i : grid0.Coords)
  (arg1 : Memref sig .tc .vmem S4x32x256 .f32) (harg1 : arg1.IsWhole) (arg2 : Memref sig .tc .vmem S256x1024 .f32) (harg2 : arg2.IsWhole)
  (arg3 : Memref sig .tc .vmem S1024 .f32) (harg3 : arg3.IsWhole) (arg4 : Memref sig .tc .vmem S1024x256 .f32) (harg4 : arg4.IsWhole)
  (arg5 : Memref sig .tc .vmem S256 .f32) (harg5 : arg5.IsWhole) (arg6 : Memref sig .tc .vmem S4x32x256 .f32) (harg6 : arg6.IsWhole)
  (arg7 : Memref sig .tc .vmem S4x32x1024 .f32) (harg7 : arg7.IsWhole)

/-- ONE TRIP's pieces, read off the generated trip: one store of the whole scratch block, its payload the trip's
    function of the rows it loads, the bias block, and the scratch contents it finds. -/
theorem trip_piece (v4 : Vec F S4x32x256 .f32) (v5 : Vec F S256x1024 .f32)
    (X_arg1 : BufTy.Contents (Elt F) arg1.view.ty) (X_arg3 : BufTy.Contents (Elt F) arg3.view.ty)
    (k : Fin k0_t1_loop.trips) (f : BufTy.Contents (Elt F) arg7.view.ty) :
    tripL_k0_t1 (F := F) 𝒱 c bd i arg1 harg1 arg2 harg2 arg3 harg3 arg4 harg4 arg5 harg5 arg6 harg6 arg7 harg7 v4 v5 X_arg1 X_arg3 k f
      = [⟨Rect.unit (s := S4x32x1024) ![0, 0, 0] S4x32x1024.size inb_S4x32x1024_S4x32x1024_0_0_0,
          k0_pay2 v4 v5
            (View.ld (arg1.view.read (Elt F) X_arg1) (Rect.unit (s := S4x32x256) (k0_off1 k) S4x8x256.size (k0_off1_inb k)))
            (View.ld (arg3.view.read (Elt F) X_arg3) (Rect.unit (s := S1024) ![0] S1024.size inb_S1024_S1024_0))
            (View.ld (arg7.view.read (Elt F) f) (Rect.unit (s := S4x32x1024) ![0, 0, 0] S4x32x1024.size inb_S4x32x1024_S4x32x1024_0_0_0))⟩] := by
  unfold tripL_k0_t1 trip_k0_t1
  rfl

/-- The pieces of the trips before `k`, laid over the zero fill, read back as the accumulator after `k` trips. -/
theorem canon_trips (x0 : Vec F S4x32x256 .f32) (x1 : Vec F S256x1024 .f32) (x2 : Vec F S1024 .f32)
    (X_arg1 : BufTy.Contents (Elt F) arg1.view.ty) (X_arg3 : BufTy.Contents (Elt F) arg3.view.ty)
    (h1 : arg1.view.read (Elt F) X_arg1 = x0) (h3 : arg3.view.read (Elt F) X_arg3 = x2)
    (HS : List (View.Piece (Elt F) S4x32x1024 .f32))
    (hHS : HS = [⟨Rect.unit (s := S4x32x1024) ![0, 0, 0] S4x32x1024.size inb_S4x32x1024_S4x32x1024_0_0_0, k0_pay1⟩]) :
    ∀ k : ℕ, k ≤ k0_t1_loop.trips →
      View.canon (pb_k0_t1 (F := F) 𝒱 c bd i arg1 harg1 arg2 harg2 arg3 harg3 arg4 harg4 arg5 harg5 arg6 harg6 arg7 harg7 x0 x1 X_arg1 X_arg3
          (arg7.view.writes (Elt F) arg7.view.junk HS) k ++ HS) = acc x0 x1 x2 k
  | 0, _ => by
    rw [pb_k0_t1.eq_1, List.nil_append, hHS, View.canon_unit_zero zero3]
    rfl
  | k + 1, hk => by
    have ih := canon_trips x0 x1 x2 X_arg1 X_arg3 h1 h3 HS hHS k (Nat.le_of_succ_le hk)
    have hk' : k < k0_t1_loop.trips := hk
    rw [pb_k0_t1_succ (F := F) 𝒱 c bd i arg1 harg1 arg2 harg2 arg3 harg3 arg4 harg4 arg5 harg5 arg6 harg6 arg7 harg7 x0 x1 X_arg1 X_arg3 _ ⟨k, hk'⟩,
      trip_piece, List.singleton_append, List.cons_append, View.canon_cons_unit_zero zero3,
      acc_succ x0 x1 x2 ⟨k, hk'⟩, h1, h3, View.ld_unit_zero zero1]
    show k0_pay2 x0 x1 _ x2 _ = k0_pay2 x0 x1 (rowsOf x0 ⟨k, hk'⟩) x2 _
    rw [← View.writes_append, View.read_writes_junk_eq_canon, View.ld_unit_zero zero3, ih]
    rfl

end Run

end Cert.KernelIdeal.Body

end
-- ==== Proof.Block.lean ====
/-
  The output block of one grid step, for any float instance: the final payload (one product with `W2` plus
  `32 · b2`) of the scratch accumulator after all four trips. Read off the generated whole-body run: its one
  output piece is a store of the whole block, whose payload loads the scratch (the zero fill under the four
  trips' pieces), `W2` and `b2`.
-/
import proofs.«137564_j65609920413983_2_alg».proof.Proof.Trips

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F]

/-- A load of a whole staging buffer, held at contents that read `x`, reads `x`. -/
theorem load_whole {S : Shape} {e : EltTy} (m : Memref sig .tc .vmem S e) (hm : m.IsWhole) (x : S.Idx → Elt F e)
    {off : Fin S.rank → Nat} (hz : off = fun _ => 0) (inb : ∀ a, off a + S.size a ≤ S.size a) :
    View.readAt (Elt F) m.view (Rect.unit off S.size inb).toLoadRect (hm.unread x) = x := by
  rw [View.readAt_eq_ld, hm.read_unread, View.ld_unit_zero hz]

variable (c : Dev nD) (i : grid0.Coords)
  (arg1 : Memref sig .tc .vmem S4x32x256 .f32) (harg1 : arg1.IsWhole) (arg2 : Memref sig .tc .vmem S256x1024 .f32) (harg2 : arg2.IsWhole)
  (arg3 : Memref sig .tc .vmem S1024 .f32) (harg3 : arg3.IsWhole) (arg4 : Memref sig .tc .vmem S1024x256 .f32) (harg4 : arg4.IsWhole)
  (arg5 : Memref sig .tc .vmem S256 .f32) (harg5 : arg5.IsWhole) (arg6 : Memref sig .tc .vmem S4x32x256 .f32) (harg6 : arg6.IsWhole)
  (arg7 : Memref sig .tc .vmem S4x32x1024 .f32) (harg7 : arg7.IsWhole)
  (x0 : Vec F S4x32x256 .f32) (x1 : Vec F S256x1024 .f32) (x2 : Vec F S1024 .f32) (x3 : Vec F S1024x256 .f32) (x4 : Vec F S256 .f32)

/-- The scratch as the final payload loads it: the accumulator after all the trips. -/
theorem scratch_eq :
    kernelRun0_A.sl.v8 (F := F) c i arg1 harg1 arg2 harg2 arg3 harg3 arg4 harg4 arg5 harg5 arg6 harg6 arg7 harg7 x0 x1 x2
      = acc x0 x1 x2 k0_t1_loop.trips := by
  unfold kernelRun0_A.sl.v8
  rw [load_whole arg1 harg1 x0 zero3, load_whole arg2 harg2 x1 zero2, View.readAt_writes_junk_eq_canon]
  show View.ld (View.canon _) (Rect.unit (s := S4x32x1024) ![0, 0, 0] S4x32x1024.size inb_S4x32x1024_S4x32x1024_0_0_0) = _
  rw [View.ld_unit_zero zero3]
  exact canon_trips Variants.none c none i arg1 harg1 arg2 harg2 arg3 harg3 arg4 harg4 arg5 harg5 arg6 harg6 arg7 harg7 x0 x1 x2
    (harg1.unread x0) (harg3.unread x2) (harg1.read_unread x0) (harg3.read_unread x2) _ rfl k0_t1_loop.trips le_rfl

/-- THE OUTPUT BLOCK of one grid step: the final payload of the accumulator after all the trips, `W2` and `b2`. -/
theorem block_eq :
    out0_A_5 (F := F) c i arg1 harg1 arg2 harg2 arg3 harg3 arg4 harg4 arg5 harg5 arg6 harg6 arg7 harg7 x0 x1 x2 x3 x4
      = k0_pay3 (acc x0 x1 x2 k0_t1_loop.trips) x3 x4 := by
  unfold out0_A_5
  rw [View.read_writes_junk_eq_canon]
  unfold kernelRun0_A
  dsimp only
  rw [View.canon_unit_zero zero3, scratch_eq, load_whole arg4 harg4 x3 zero2, load_whole arg5 harg5 x4 zero1]

end Cert.KernelIdeal.Body

end
-- ==== Proof.Layout.lean ====
/-
  The layout operations of the kernel body read at an index (any element type): each shape cast reads its operand at
  the index with the same row-major position, each broadcast reads its operand at the index with `0` on the unit
  axis. Stated over variables of the literal shapes, coordinates typed by their literal extents.

  The positions: a row `r` of the `[1024, ·]` matrices the first product works on is `(b·8 + i)·32 + j` for
  `(b, i, j)` in `[4, 8, 32]` (batch row of the tile, row of the chunk, row of the block), and a row of the
  `[128, ·]` matrices of the second product is `b·32 + j`.
-/
import Idealize.ShloMosaic.Lib.Pipeline.Value
import Idealize.ShloMosaic.Lib.ValueIdx
import Idealize.ShloMosaic.Lib.ValueLayout

namespace Cert.Layout

open Idealize.ShloMosaic Idealize.ShloMosaic.ValueIdx

variable {α : Type}

/-- Row `(b·8 + i)·32 + j` of a 1024-row matrix. -/
abbrev row3 (b : Fin 4) (i : Fin 8) (j : Fin 32) : Fin 1024 :=
  ⟨(b.val * 8 + i.val) * 32 + j.val, by have := b.isLt; have := i.isLt; have := j.isLt; omega⟩

/-- Row `b·32 + j` of a 128-row matrix. -/
abbrev row2 (b : Fin 4) (j : Fin 32) : Fin 128 :=
  ⟨b.val * 32 + j.val, by have := b.isLt; have := j.isLt; omega⟩

/-- `[4, 8, 256] → [4, 8, 1, 256]`: the unit axis is dropped. -/
theorem cast_4x8x256_4x8x1x256 (v : (⟨3, ![4, 8, 256]⟩ : Shape).Idx → α)
    (h : (⟨3, ![4, 8, 256]⟩ : Shape).ShapeCasts ⟨4, ![4, 8, 1, 256]⟩) (b : Fin 4) (i : Fin 8) (u : Fin 1) (d : Fin 256) :
    shapeCast ⟨4, ![4, 8, 1, 256]⟩ v h (ix4 b i u d) = v (ix3 b i d) :=
  shapeCast_apply v h _ _ (by
    rw [Shape.rowMajor_val_three, Shape.rowMajor_val_four]
    show (b.val * 8 + i.val) * 256 + d.val = ((b.val * 8 + i.val) * 1 + u.val) * 256 + d.val
    have := u.isLt; omega)

/-- `[4, 32, 256] → [4, 1, 32, 256]`. -/
theorem cast_4x32x256_4x1x32x256 (v : (⟨3, ![4, 32, 256]⟩ : Shape).Idx → α)
    (h : (⟨3, ![4, 32, 256]⟩ : Shape).ShapeCasts ⟨4, ![4, 1, 32, 256]⟩) (b : Fin 4) (u : Fin 1) (j : Fin 32) (d : Fin 256) :
    shapeCast ⟨4, ![4, 1, 32, 256]⟩ v h (ix4 b u j d) = v (ix3 b j d) :=
  shapeCast_apply v h _ _ (by
    rw [Shape.rowMajor_val_three, Shape.rowMajor_val_four]
    show (b.val * 32 + j.val) * 256 + d.val = ((b.val * 1 + u.val) * 32 + j.val) * 256 + d.val
    have := u.isLt; omega)

/-- `[4, 8, 1, 256] → [4, 8, 32, 256]`: constant along the third axis. -/
theorem bcast_4x8x1x256 (y : (⟨4, ![4, 8, 1, 256]⟩ : Shape).Idx → α)
    (h : (⟨4, ![4, 8, 1, 256]⟩ : Shape).Broadcasts ⟨4, ![4, 8, 32, 256]⟩) (b : Fin 4) (i : Fin 8) (j : Fin 32) (d : Fin 256) :
    broadcastTo ⟨4, ![4, 8, 32, 256]⟩ y h (ix4 b i j d) = y (ix4 b i (0 : Fin 1) d) := by
  refine broadcastTo_apply y h (ix4 b i j d) (ix4 b i (0 : Fin 1) d) fun ax => ?_
  match ax with
  | ⟨0, _⟩ => show b.val = if (4 : Nat) = 1 then 0 else b.val; rw [if_neg (by decide)]
  | ⟨1, _⟩ => show i.val = if (8 : Nat) = 1 then 0 else i.val; rw [if_neg (by decide)]
  | ⟨2, _⟩ => show 0 = if (1 : Nat) = 1 then 0 else j.val; rw [if_pos rfl]
  | ⟨3, _⟩ => show d.val = if (256 : Nat) = 1 then 0 else d.val; rw [if_neg (by decide)]

/-- `[4, 1, 32, 256] → [4, 8, 32, 256]`: constant along the second axis. -/
theorem bcast_4x1x32x256 (y : (⟨4, ![4, 1, 32, 256]⟩ : Shape).Idx → α)
    (h : (⟨4, ![4, 1, 32, 256]⟩ : Shape).Broadcasts ⟨4, ![4, 8, 32, 256]⟩) (b : Fin 4) (i : Fin 8) (j : Fin 32) (d : Fin 256) :
    broadcastTo ⟨4, ![4, 8, 32, 256]⟩ y h (ix4 b i j d) = y (ix4 b (0 : Fin 1) j d) := by
  refine broadcastTo_apply y h (ix4 b i j d) (ix4 b (0 : Fin 1) j d) fun ax => ?_
  match ax with
  | ⟨0, _⟩ => show b.val = if (4 : Nat) = 1 then 0 else b.val; rw [if_neg (by decide)]
  | ⟨1, _⟩ => show 0 = if (1 : Nat) = 1 then 0 else i.val; rw [if_pos rfl]
  | ⟨2, _⟩ => show j.val = if (32 : Nat) = 1 then 0 else j.val; rw [if_neg (by decide)]
  | ⟨3, _⟩ => show d.val = if (256 : Nat) = 1 then 0 else d.val; rw [if_neg (by decide)]

/-- `[4, 8, 32, n] → [1024, n]`: row `(b·8 + i)·32 + j`. -/
theorem cast_4x8x32xn_1024xn {n : ℕ} (v : (⟨4, ![4, 8, 32, n]⟩ : Shape).Idx → α)
    (h : (⟨4, ![4, 8, 32, n]⟩ : Shape).ShapeCasts ⟨2, ![1024, n]⟩) (b : Fin 4) (i : Fin 8) (j : Fin 32) (d : Fin n) :
    shapeCast ⟨2, ![1024, n]⟩ v h (ix2 (row3 b i j) d) = v (ix4 b i j d) :=
  shapeCast_apply v h _ _ (by
    rw [Shape.rowMajor_val_two, Shape.rowMajor_val_four]
    show ((b.val * 8 + i.val) * 32 + j.val) * n + d.val = ((b.val * 8 + i.val) * 32 + j.val) * n + d.val
    rfl)

/-- `[1024, n] → [4, 8, 32, n]`: the same positions, the other way. -/
theorem cast_1024xn_4x8x32xn {n : ℕ} (v : (⟨2, ![1024, n]⟩ : Shape).Idx → α)
    (h : (⟨2, ![1024, n]⟩ : Shape).ShapeCasts ⟨4, ![4, 8, 32, n]⟩) (b : Fin 4) (i : Fin 8) (j : Fin 32) (d : Fin n) :
    shapeCast ⟨4, ![4, 8, 32, n]⟩ v h (ix4 b i j d) = v (ix2 (row3 b i j) d) :=
  shapeCast_apply v h _ _ (by
    rw [Shape.rowMajor_val_two, Shape.rowMajor_val_four]
    show ((b.val * 8 + i.val) * 32 + j.val) * n + d.val = ((b.val * 8 + i.val) * 32 + j.val) * n + d.val
    rfl)

/-- `[4, 32, n] → [128, n]`: row `b·32 + j`. -/
theorem cast_4x32xn_128xn {n : ℕ} (v : (⟨3, ![4, 32, n]⟩ : Shape).Idx → α)
    (h : (⟨3, ![4, 32, n]⟩ : Shape).ShapeCasts ⟨2, ![128, n]⟩) (b : Fin 4) (j : Fin 32) (d : Fin n) :
    shapeCast ⟨2, ![128, n]⟩ v h (ix2 (row2 b j) d) = v (ix3 b j d) :=
  shapeCast_apply v h _ _ (by
    rw [Shape.rowMajor_val_two, Shape.rowMajor_val_three]
    show (b.val * 32 + j.val) * n + d.val = (b.val * 32 + j.val) * n + d.val
    rfl)

/-- `[128, n] → [4, 32, n]`. -/
theorem cast_128xn_4x32xn {n : ℕ} (v : (⟨2, ![128, n]⟩ : Shape).Idx → α)
    (h : (⟨2, ![128, n]⟩ : Shape).ShapeCasts ⟨3, ![4, 32, n]⟩) (b : Fin 4) (j : Fin 32) (d : Fin n) :
    shapeCast ⟨3, ![4, 32, n]⟩ v h (ix3 b j d) = v (ix2 (row2 b j) d) :=
  shapeCast_apply v h _ _ (by
    rw [Shape.rowMajor_val_two, Shape.rowMajor_val_three]
    show (b.val * 32 + j.val) * n + d.val = (b.val * 32 + j.val) * n + d.val
    rfl)

end Cert.Layout
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.Payload.lean ====
/-
  The three payloads of the kernel body read at an index, at the ideal instance (floats are extended reals, a
  change of float format is the identity, a matrix product into a zero block is the plain sum of products).

  * the zero fill is `0` everywhere;
  * one trip's payload at `(b, j, h)` is the scratch it found there PLUS the sum over the chunk's eight rows `i` of
    the rectified hidden activation `max (Σ_d (rows[b,i,d] · x[b,j,d]) · W1[d,h] + b1[h]) 0`;
  * the final payload at `(b, j, d)` is `Σ_h hsum[b,j,h] · W2[h,d] + 32 · b2[d]`.

  Each payload is first restated (by unfolding, `rfl`) as a composition of a few named stages, and each stage is
  read at an index by the layout lemmas.
-/
import proofs.«137564_j65609920413983_2_alg».proof.Proof.Gen.KernelIdeal.Skeleton
import proofs.«137564_j65609920413983_2_alg».proof.Proof.Layout
import proofs.«137564_j65609920413983_2_alg».proof.Proof.LibMatmulRead
import Idealize.ShloMosaic.PureOps.Ideal.Laws

noncomputable section

namespace Cert.KernelIdeal.Payload

open Cert.KernelIdeal Cert.KernelIdeal.Gen Cert.Layout
open Idealize.ShloMosaic Idealize.ShloMosaic.ValueIdx Idealize.ShloMosaic.MatmulRead
open scoped BigOperators

/-! ## The zero fill -/

theorem pay1_apply (b : Fin 4) (j : Fin 32) (h : Fin 1024) : k0_pay1 (F := Ideal) (ix3 b j h) = 0 := by
  show shapeCast S4x32x1024 (broadcast S4x32x1024 (Scalar.ofBits (F := Ideal) .f32 0x00000000#32)) shapeCasts_S4x32x1024_S4x32x1024 (ix3 b j h) = 0
  rw [shapeCast_self]
  exact Ideal.ofBits_zero_f32

/-! ## One trip -/

/-- The pairwise products of the chunk's rows with all the block's rows: `rows[b,i,d] · x[b,j,d]` at `(b,i,j,d)`. -/
def pair (v4 : FVec Ideal S4x32x256 .f32) (v25 : FVec Ideal S4x8x256 .f32) : FVec Ideal S4x8x32x256 .f32 :=
  mulf (broadcastTo S4x8x32x256 (shapeCast S4x8x1x256 v25 shapeCasts_S4x8x256_S4x8x1x256) broadcasts_S4x8x1x256_S4x8x32x256)
    (broadcastTo S4x8x32x256 (shapeCast S4x1x32x256 v4 shapeCasts_S4x32x256_S4x1x32x256) broadcasts_S4x1x32x256_S4x8x32x256)

theorem pair_apply (v4 : FVec Ideal S4x32x256 .f32) (v25 : FVec Ideal S4x8x256 .f32) (b : Fin 4) (i : Fin 8) (j : Fin 32) (d : Fin 256) :
    pair v4 v25 (ix4 b i j d) = v25 (ix3 b i d) * v4 (ix3 b j d) := by
  show broadcastTo S4x8x32x256 _ _ (ix4 b i j d) * broadcastTo S4x8x32x256 _ _ (ix4 b i j d) = _
  rw [bcast_4x8x1x256, bcast_4x1x32x256, cast_4x8x256_4x8x1x256, cast_4x32x256_4x1x32x256]

/-- The rectified hidden activations of the chunk, as the `[1024, 1024]` matrix the body computes: row
    `(b·8 + i)·32 + j`, column `h`. -/
def hidden (v4 : FVec Ideal S4x32x256 .f32) (v5 : FVec Ideal S256x1024 .f32) (v25 : FVec Ideal S4x8x256 .f32) (v34 : FVec Ideal S1024 .f32) :
    FVec Ideal S1024x1024 .f32 :=
  maximumf
    (addf
      (matmul dot_S1024x256_S256x1024_S1024x1024_1_0_0_1_n_n none
        (truncf .bf16 (shapeCast S1024x256 (pair v4 v25) shapeCasts_S4x8x32x256_S1024x256) bitsLt_bf16_f32)
        (truncf .bf16 v5 bitsLt_bf16_f32) (constant S1024x1024 .f32 0x00000000#32))
      (broadcastTo S1024x1024 (shapeCast S1x1024 v34 shapeCasts_S1024_S1x1024) broadcasts_S1x1024_S1024x1024))
    (broadcast S1024x1024 (Scalar.ofBits (F := Ideal) .f32 0x00000000#32))

theorem rbc1 : RowsByCols dot_S1024x256_S256x1024_S1024x1024_1_0_0_1_n_n := ⟨rfl, rfl, rfl, rfl, rfl, rfl⟩

theorem hidden_apply (v4 : FVec Ideal S4x32x256 .f32) (v5 : FVec Ideal S256x1024 .f32) (v25 : FVec Ideal S4x8x256 .f32) (v34 : FVec Ideal S1024 .f32)
    (b : Fin 4) (i : Fin 8) (j : Fin 32) (h : Fin 1024) :
    hidden v4 v5 v25 v34 (ix2 (row3 b i j) h)
      = max ((∑ d : Fin 256, (v25 (ix3 b i d) * v4 (ix3 b j d)) * v5 (ix2 d h)) + v34 (ix1 h)) 0 := by
  have hm := matmul_zero_ix2 rbc1 rfl rfl none
    (truncf .bf16 (shapeCast S1024x256 (pair v4 v25) shapeCasts_S4x8x32x256_S1024x256) bitsLt_bf16_f32)
    (truncf .bf16 v5 bitsLt_bf16_f32) (row3 b i j) h
  have hb : broadcastTo S1024x1024 (shapeCast S1x1024 v34 shapeCasts_S1024_S1x1024) broadcasts_S1x1024_S1024x1024 (ix2 (row3 b i j) h)
      = v34 (ix1 h) := by
    rw [broadcastTo_1b_ab_apply, shapeCast_a_1a_apply]
  show max (_ + _) (Ideal.ofBits .f32 0x00000000#32) = _
  rw [Ideal.ofBits_zero_f32]
  refine congrArg₂ (fun s t => max (s + t) 0) (hm.trans ?_) hb
  refine Finset.sum_congr rfl fun d _ => ?_
  show shapeCast S1024x256 (pair v4 v25) _ (ix2 (row3 b i j) d) * v5 (ix2 d h) = _
  rw [cast_4x8x32xn_1024xn, pair_apply]

/-- The trip's payload as a composition of the named stages (by unfolding). -/
theorem pay2_eq (v4 : FVec Ideal S4x32x256 .f32) (v5 : FVec Ideal S256x1024 .f32) (v25 : FVec Ideal S4x8x256 .f32) (v34 : FVec Ideal S1024 .f32)
    (v41 : FVec Ideal S4x32x1024 .f32) :
    k0_pay2 (F := Ideal) v4 v5 v25 v34 v41
      = shapeCast S4x32x1024
          (addf v41 (multiReduction .add [1] S4x32x1024
            (shapeCast S4x8x32x1024 (hidden v4 v5 v25 v34) shapeCasts_S1024x1024_S4x8x32x1024)
            0x00000000#32 reduces_S4x8x32x1024_S4x32x1024 (.inl rfl) rfl))
          shapeCasts_S4x32x1024_S4x32x1024 := rfl

/-- ONE TRIP at `(b, j, h)`: what the scratch held there, plus the chunk's eight rectified hidden activations. -/
theorem pay2_apply (v4 : FVec Ideal S4x32x256 .f32) (v5 : FVec Ideal S256x1024 .f32) (v25 : FVec Ideal S4x8x256 .f32) (v34 : FVec Ideal S1024 .f32)
    (v41 : FVec Ideal S4x32x1024 .f32) (b : Fin 4) (j : Fin 32) (h : Fin 1024) :
    k0_pay2 (F := Ideal) v4 v5 v25 v34 v41 (ix3 b j h)
      = v41 (ix3 b j h) + ∑ i : Fin 8,
          max ((∑ d : Fin 256, (v25 (ix3 b i d) * v4 (ix3 b j d)) * v5 (ix2 d h)) + v34 (ix1 h)) 0 := by
  rw [pay2_eq, shapeCast_self]
  refine congrArg (v41 (ix3 b j h) + ·) ?_
  refine (Ideal.multiReduction_add_single _ _ reduces_S4x8x32x1024_S4x32x1024 (.inl rfl) rfl (ix3 b j h)).trans ?_
  refine Finset.sum_congr rfl fun (i : Fin 8) _ => ?_
  have e : reduces_S4x8x32x1024_S4x32x1024.lift (ix3 b j h) i = ix4 b i j h := funext fun a => Fin.ext (by
    match a with | ⟨0, _⟩ => rfl | ⟨1, _⟩ => rfl | ⟨2, _⟩ => rfl | ⟨3, _⟩ => rfl)
  rw [e, cast_1024xn_4x8x32xn]
  exact hidden_apply v4 v5 v25 v34 b i j h

/-! ## The final payload -/

theorem rbc2 : RowsByCols dot_S128x1024_S1024x256_S128x256_1_0_0_1_n_n := ⟨rfl, rfl, rfl, rfl, rfl, rfl⟩

/-- The final payload as a composition (by unfolding). -/
theorem pay3_eq (v8 : FVec Ideal S4x32x1024 .f32) (v11 : FVec Ideal S1024x256 .f32) (v14 : FVec Ideal S256 .f32) :
    k0_pay3 (F := Ideal) v8 v11 v14
      = shapeCast S4x32x256
          (addf
            (matmul dot_S128x1024_S1024x256_S128x256_1_0_0_1_n_n none
              (truncf .bf16 (shapeCast S128x1024 v8 shapeCasts_S4x32x1024_S128x1024) bitsLt_bf16_f32)
              (truncf .bf16 v11 bitsLt_bf16_f32) (constant S128x256 .f32 0x00000000#32))
            (broadcastTo S128x256
              (shapeCast S1x256 (mulf (broadcast S256 (Scalar.ofBits (F := Ideal) .f32 0x42000000#32)) v14) shapeCasts_S256_S1x256)
              broadcasts_S1x256_S128x256))
          shapeCasts_S128x256_S4x32x256 := rfl

/-- THE FINAL PAYLOAD at `(b, j, d)`: the accumulator's row against column `d` of `W2`, plus the literal `32.0`
    times `b2[d]`. -/
theorem pay3_apply (v8 : FVec Ideal S4x32x1024 .f32) (v11 : FVec Ideal S1024x256 .f32) (v14 : FVec Ideal S256 .f32)
    (b : Fin 4) (j : Fin 32) (d : Fin 256) :
    k0_pay3 (F := Ideal) v8 v11 v14 (ix3 b j d)
      = (∑ h : Fin 1024, v8 (ix3 b j h) * v11 (ix2 h d)) + Ideal.ofBits .f32 0x42000000#32 * v14 (ix1 d) := by
  rw [pay3_eq, cast_128xn_4x32xn]
  have hm := matmul_zero_ix2 rbc2 rfl rfl none
    (truncf .bf16 (shapeCast S128x1024 v8 shapeCasts_S4x32x1024_S128x1024) bitsLt_bf16_f32)
    (truncf .bf16 v11 bitsLt_bf16_f32) (row2 b j) d
  have hb : broadcastTo S128x256
      (shapeCast S1x256 (mulf (broadcast S256 (Scalar.ofBits (F := Ideal) .f32 0x42000000#32)) v14) shapeCasts_S256_S1x256)
      broadcasts_S1x256_S128x256 (ix2 (row2 b j) d) = Ideal.ofBits .f32 0x42000000#32 * v14 (ix1 d) := by
    rw [broadcastTo_1b_ab_apply, shapeCast_a_1a_apply]
    rfl
  refine congrArg₂ (· + ·) (hm.trans ?_) hb
  refine Finset.sum_congr rfl fun h _ => ?_
  show shapeCast S128x1024 v8 _ (ix2 (row2 b j) h) * v11 (ix2 h d) = _
  rw [cast_4x32xn_128xn]

/-- The literal `0x42000000` is thirty-two. -/
theorem ofBits_32_real : Ideal.ofBits .f32 0x42000000#32 = ((32 : ℝ) : EReal) := by
  simp [Ideal.ofBits, Ideal.ieee, -EReal.coe_mul]; norm_num

theorem ofBits_32 : Ideal.ofBits .f32 0x42000000#32 = ((32 : ℕ) : EReal) := by
  rw [ofBits_32_real]; norm_cast

end Cert.KernelIdeal.Payload

end
-- ==== Proof.LibSumNonneg.lean ====
/-
  General facts about finite sums on the extended reals, about no particular program, and the one law they give
  that joins the two arrangements of a two-layer perceptron summed over an index.

  With `A i h ≥ 0` (a rectified value), any weights `W h` and any bias `b`:

      (∑ h, (∑ i, A i h) * W h) + 32 * b  =  0 + ∑ i, ((∑ h, A i h * W h) + b)      (i over thirty-two indices).

  The left side sums the hidden activations over `i` BEFORE the second layer; the right side applies the second
  layer to every `i` and sums afterwards. On the extended reals multiplication does not distribute over addition
  in general (`⊤ + ⊥`), but it does over non-negative summands, which is all that is used; exchanging the two sums
  and splitting `∑ (s i + b)` hold in any additive commutative monoid; and `32 * b` is `b` added thirty-two times
  at every extended real, the infinities included. No finiteness of any input is needed.
-/
import Mathlib.Data.EReal.Operations
import Mathlib.Algebra.BigOperators.Fin
import Mathlib.Algebra.Order.BigOperators.Group.Finset

namespace Cert.SumLaws

open scoped BigOperators

/-- A finite sum of non-negative extended reals times one factor is the sum of the products. -/
theorem sum_mul_of_nonneg {ι : Type*} (s : Finset ι) (a : ι → EReal) (w : EReal) (ha : ∀ i ∈ s, 0 ≤ a i) :
    (∑ i ∈ s, a i) * w = ∑ i ∈ s, a i * w := by
  classical
  induction s using Finset.induction_on with
  | empty => simp
  | insert j s hj ih =>
    rw [Finset.sum_insert hj, Finset.sum_insert hj,
      EReal.right_distrib_of_nonneg (ha j (Finset.mem_insert_self j s))
        (Finset.sum_nonneg fun i hi => ha i (Finset.mem_insert_of_mem hi)),
      ih fun i hi => ha i (Finset.mem_insert_of_mem hi)]

/-- A constant summed over `n` indices is `n` times the constant, at every extended real. -/
theorem sum_const_fin (n : ℕ) (b : EReal) : ∑ _i : Fin n, b = (n : EReal) * b := by
  rw [Finset.sum_const, Finset.card_univ, Fintype.card_fin, EReal.nsmul_eq_mul]

/-- The law: summing over `i` before the second layer, with the bias taken `n` times, is applying the second layer
    at every `i` (bias included) and summing afterwards. -/
theorem layer_sum_exchange {n H : ℕ} (A : Fin n → Fin H → EReal) (W : Fin H → EReal) (b : EReal)
    (hA : ∀ i h, 0 ≤ A i h) :
    (∑ h : Fin H, (∑ i : Fin n, A i h) * W h) + (n : EReal) * b
      = 0 + ∑ i : Fin n, ((∑ h : Fin H, A i h * W h) + b) := by
  rw [zero_add, Finset.sum_add_distrib, sum_const_fin, Finset.sum_comm]
  congr 1
  exact Finset.sum_congr rfl fun h _ => sum_mul_of_nonneg _ _ _ fun i _ => hA i h

end Cert.SumLaws
-- ==== Proof.Spec.lean ====
/-
  The specification: what the pairwise MLP computes for ONE batch element, over the extended reals.

  With `r i d` the batch element's thirty-two rows, `W1, b1` the first layer and `W2, b2` the second:

      act i j h  = max (Σ_d (r i d · r j d) · W1 d h + b1 h) 0                       (hidden activation of the pair (i, j))
      out j d    = 0 + Σ_i ((Σ_h act i j h · W2 h d) + b2 d)                          (second layer per pair, summed over i)

  and the factored form the kernel computes — the hidden activations summed over `i` FIRST, one product with `W2`,
  and the bias taken thirty-two times — equals it (`factored_eq`): the activations are non-negative, so the product
  distributes over their sum on the extended reals whatever `W2` holds.
-/
import proofs.«137564_j65609920413983_2_alg».proof.Proof.LibSumNonneg
import Idealize.ShloMosaic.Lib.ValueIdx

noncomputable section

namespace Cert.Spec

open scoped BigOperators

/-- The rectified hidden activation of the pair of rows `(i, j)` at hidden unit `h`. -/
def act (r : Fin 32 → Fin 256 → EReal) (w1 : Fin 256 → Fin 1024 → EReal) (b1 : Fin 1024 → EReal)
    (i j : Fin 32) (h : Fin 1024) : EReal :=
  max ((∑ d : Fin 256, (r i d * r j d) * w1 d h) + b1 h) 0

theorem act_nonneg (r : Fin 32 → Fin 256 → EReal) (w1 : Fin 256 → Fin 1024 → EReal) (b1 : Fin 1024 → EReal)
    (i j : Fin 32) (h : Fin 1024) : 0 ≤ act r w1 b1 i j h := le_max_right _ _

/-- The result at row `j`, feature `d`: the second layer applied to every pair `(i, j)`, summed over `i`. -/
def out (r : Fin 32 → Fin 256 → EReal) (w1 : Fin 256 → Fin 1024 → EReal) (b1 : Fin 1024 → EReal)
    (w2 : Fin 1024 → Fin 256 → EReal) (b2 : Fin 256 → EReal) (j : Fin 32) (d : Fin 256) : EReal :=
  0 + ∑ i : Fin 32, ((∑ h : Fin 1024, act r w1 b1 i j h * w2 h d) + b2 d)

/-- The factored form — activations summed over `i` before the second layer, the bias thirty-two times — is the result. -/
theorem factored_eq (r : Fin 32 → Fin 256 → EReal) (w1 : Fin 256 → Fin 1024 → EReal) (b1 : Fin 1024 → EReal)
    (w2 : Fin 1024 → Fin 256 → EReal) (b2 : Fin 256 → EReal) (j : Fin 32) (d : Fin 256) :
    (∑ h : Fin 1024, (∑ i : Fin 32, act r w1 b1 i j h) * w2 h d) + ((32 : ℕ) : EReal) * b2 d = out r w1 b1 w2 b2 j d :=
  Cert.SumLaws.layer_sum_exchange (fun i h => act r w1 b1 i j h) (fun h => w2 h d) (b2 d) fun i h => act_nonneg r w1 b1 i j h

/-! ## The whole result array -/

open Idealize.ShloMosaic Idealize.ShloMosaic.ValueIdx

/-- The result at `(B, j, d)`: the specification for batch element `B` of the argument arrays. -/
def resultAt (x : (⟨3, ![128, 32, 256]⟩ : Shape).Idx → EReal) (w1 : (⟨2, ![256, 1024]⟩ : Shape).Idx → EReal)
    (b1 : (⟨1, ![1024]⟩ : Shape).Idx → EReal) (w2 : (⟨2, ![1024, 256]⟩ : Shape).Idx → EReal)
    (b2 : (⟨1, ![256]⟩ : Shape).Idx → EReal) (B : Fin 128) (j : Fin 32) (d : Fin 256) : EReal :=
  out (fun i d => x (ix3 B i d)) (fun d h => w1 (ix2 d h)) (fun h => b1 (ix1 h)) (fun h d => w2 (ix2 h d))
    (fun d => b2 (ix1 d)) j d

/-- The whole result array `[128, 32, 256]` as one function of the five argument arrays. -/
def result (x : (⟨3, ![128, 32, 256]⟩ : Shape).Idx → EReal) (w1 : (⟨2, ![256, 1024]⟩ : Shape).Idx → EReal)
    (b1 : (⟨1, ![1024]⟩ : Shape).Idx → EReal) (w2 : (⟨2, ![1024, 256]⟩ : Shape).Idx → EReal)
    (b2 : (⟨1, ![256]⟩ : Shape).Idx → EReal) : (⟨3, ![128, 32, 256]⟩ : Shape).Idx → EReal :=
  fun idx => resultAt x w1 b1 w2 b2 ⟨(idx 0).val, (idx 0).isLt⟩ ⟨(idx 1).val, (idx 1).isLt⟩ ⟨(idx 2).val, (idx 2).isLt⟩

theorem result_ix3 (x : (⟨3, ![128, 32, 256]⟩ : Shape).Idx → EReal) (w1 : (⟨2, ![256, 1024]⟩ : Shape).Idx → EReal)
    (b1 : (⟨1, ![1024]⟩ : Shape).Idx → EReal) (w2 : (⟨2, ![1024, 256]⟩ : Shape).Idx → EReal)
    (b2 : (⟨1, ![256]⟩ : Shape).Idx → EReal) (B : Fin 128) (j : Fin 32) (d : Fin 256) :
    result x w1 b1 w2 b2 (ix3 B j d) = resultAt x w1 b1 w2 b2 B j d := rfl

end Cert.Spec

end
-- ==== Proof.LibChunkSum.lean ====
/-
  Two general facts, about no particular program.

  * A sum over `Fin N` with `N = c + c + c + c` is the sum of its four consecutive chunks of length `c`. Only
    associativity and commutativity of `+` are used, so it holds in every additive commutative monoid — on the
    extended reals with their infinities as well as on the reals.
  * A load through a unit-stride rectangle reads the contents at "offset + coordinate" on every axis, whatever the
    offset (the library states this for the zero offset).
-/
import Mathlib.Algebra.BigOperators.Fin
import Idealize.ShloMosaic.Lib.Pipeline.Value
import Idealize.ShloMosaic.Lib.ValueIdx

namespace Idealize.ShloMosaic.ChunkSum

open scoped BigOperators

/-- A sum over `Fin N`, `N = c + c + c + c`, is the sum of its four consecutive chunks of length `c`. -/
theorem sum_four_chunks {M : Type*} [AddCommMonoid M] (c N : ℕ) (h : N = c + c + c + c) (f : Fin N → M) :
    ∑ i : Fin N, f i
      = (∑ i : Fin c, f ⟨i.val, by have := i.isLt; omega⟩)
        + (∑ i : Fin c, f ⟨c + i.val, by have := i.isLt; omega⟩)
        + (∑ i : Fin c, f ⟨c + c + i.val, by have := i.isLt; omega⟩)
        + (∑ i : Fin c, f ⟨c + c + c + i.val, by have := i.isLt; omega⟩) := by
  subst h
  rw [Fin.sum_univ_add, Fin.sum_univ_add, Fin.sum_univ_add]
  rfl

/-- A load through a unit-stride rectangle, read at an index: the contents at the rectangle's placement of it. -/
theorem ld_unit_apply {Val : EltTy → Type} {S : Shape} {e : EltTy} (off size : Fin S.rank → Nat)
    (inb : ∀ a, off a + size a ≤ S.size a) (X : S.Idx → Val e) (y : (Rect.unit off size inb).shape.Idx) :
    View.ld X (Rect.unit off size inb) y = X ((Rect.unit off size inb).emb y) := rfl

/-- The placement's coordinate on axis `a`: the offset plus the coordinate inside the rectangle. -/
theorem emb_unit_val {S : Shape} (off size : Fin S.rank → Nat) (inb : ∀ a, off a + size a ≤ S.size a)
    (y : (Rect.unit off size inb).shape.Idx) (a : Fin S.rank) :
    ((Rect.unit off size inb).emb y a : Nat) = off a + 1 * (y a : Nat) := rfl

open Idealize.ShloMosaic.ValueIdx in
/-- At rank two: a load through the unit-stride rectangle of extents `a × b` at origin `(o0, o1)`, read at `(p, n)`,
    is the contents at `(o0 + p, o1 + n)`. -/
theorem ld_unit_ix2 {Val : EltTy → Type} {e : EltTy} {A B a b : ℕ} (o0 o1 : ℕ)
    (X : (⟨2, ![A, B]⟩ : Shape).Idx → Val e)
    (inb : ∀ ax, (![o0, o1] : Fin 2 → Nat) ax + (⟨2, ![a, b]⟩ : Shape).size ax ≤ (⟨2, ![A, B]⟩ : Shape).size ax)
    (p : Fin a) (n : Fin b) (h0 : o0 + p.val < A) (h1 : o1 + n.val < B) :
    View.ld X (Rect.unit (s := (⟨2, ![A, B]⟩ : Shape)) ![o0, o1] (⟨2, ![a, b]⟩ : Shape).size inb) (ix2 p n)
      = X (ix2 ⟨o0 + p.val, h0⟩ ⟨o1 + n.val, h1⟩) :=
  congrArg X (funext fun ax => Fin.ext (by
    match ax with
    | ⟨0, _⟩ => show o0 + 1 * p.val = o0 + p.val; omega
    | ⟨1, _⟩ => show o1 + 1 * n.val = o1 + n.val; omega))

end Idealize.ShloMosaic.ChunkSum
-- ==== Proof.BlockValue.lean ====
/-
  The output block of one grid step at the ideal instance, index by index: at `(b, j, d)` it is the specification's
  result for batch element `b` of the staged block.

  Trip `k` loads rows `8k … 8k+7` of the block, so it adds to the scratch at `(b, j, h)` the hidden activations of
  the pairs `(8k + i', j)`, `i' < 8`; four trips over the zero fill give the sum over all thirty-two rows `i` (a
  sum over thirty-two indices is the sum of its four chunks of eight); the final payload is then the factored form
  of the specification.
-/
import proofs.«137564_j65609920413983_2_alg».proof.Proof.Trips
import proofs.«137564_j65609920413983_2_alg».proof.Proof.Payload
import proofs.«137564_j65609920413983_2_alg».proof.Proof.Spec
import proofs.«137564_j65609920413983_2_alg».proof.Proof.LibChunkSum

noncomputable section

namespace Cert.KernelIdeal.BlockValue

open Cert.KernelIdeal Cert.KernelIdeal.Gen Cert.KernelIdeal.Body Cert.KernelIdeal.Payload Cert.Spec
open Idealize.ShloMosaic Idealize.ShloMosaic.ValueIdx
open scoped BigOperators

variable (x0 : FVec Ideal S4x32x256 .f32) (x1 : FVec Ideal S256x1024 .f32) (x2 : FVec Ideal S1024 .f32)
  (x3 : FVec Ideal S1024x256 .f32) (x4 : FVec Ideal S256 .f32)

/-- Trip `k`'s rows: row `i'` of the chunk is row `8k + i'` of the block. -/
theorem rowsOf_apply (k : Fin k0_t1_loop.trips) (b : Fin 4) (i' : Fin 8) (d : Fin 256) (r : Fin 32)
    (hr : r.val = 8 * k.val + i'.val) : rowsOf (F := Ideal) x0 k (ix3 b i' d) = x0 (ix3 b r d) := by
  unfold rowsOf
  refine congrArg x0 (funext fun a => Fin.ext ?_)
  have e := k0_off1_eq k
  match a with
  | ⟨0, _⟩ => show (k0_off1 k) 0 + 1 * b.val = b.val; rw [e]; show 0 + 1 * b.val = b.val; omega
  | ⟨1, _⟩ => show (k0_off1 k) 1 + 1 * i'.val = r.val; rw [e, hr]; show 8 * k.val + 1 * i'.val = _; omega
  | ⟨2, _⟩ => show (k0_off1 k) 2 + 1 * d.val = d.val; rw [e]; show 0 + 1 * d.val = d.val; omega

/-- The hidden activation of the pair `(i, j)` of batch element `b` of the block. -/
abbrev actB (b : Fin 4) (i j : Fin 32) (h : Fin 1024) : EReal :=
  act (fun i d => x0 (ix3 b i d)) (fun d h => x1 (ix2 d h)) (fun h => x2 (ix1 h)) i j h

/-- ONE TRIP at `(b, j, h)`: the scratch gains the activations of the chunk's eight rows. -/
theorem acc_step (k : ℕ) (hk : k < k0_t1_loop.trips) (b : Fin 4) (j : Fin 32) (h : Fin 1024)
    (r : Fin 8 → Fin 32) (hr : ∀ i', (r i').val = 8 * k + i'.val) :
    acc (F := Ideal) x0 x1 x2 (k + 1) (ix3 b j h)
      = acc (F := Ideal) x0 x1 x2 k (ix3 b j h) + ∑ i' : Fin 8, actB x0 x1 x2 b (r i') j h := by
  have e : acc (F := Ideal) x0 x1 x2 (k + 1)
      = k0_pay2 (F := Ideal) x0 x1 (rowsOf (F := Ideal) x0 ⟨k, hk⟩) x2 (acc (F := Ideal) x0 x1 x2 k) := acc_succ (F := Ideal) x0 x1 x2 ⟨k, hk⟩
  rw [e, pay2_apply]
  refine congrArg (_ + ·) (Finset.sum_congr rfl fun i' _ => ?_)
  refine congrArg (fun s => max (s + x2 (ix1 h)) 0) (Finset.sum_congr rfl fun d _ => ?_)
  rw [rowsOf_apply x0 ⟨k, hk⟩ b i' d (r i') (hr i')]

/-- AFTER THE FOUR TRIPS the scratch at `(b, j, h)` holds the activations summed over all thirty-two rows. -/
theorem acc_all (b : Fin 4) (j : Fin 32) (h : Fin 1024) :
    acc (F := Ideal) x0 x1 x2 k0_t1_loop.trips (ix3 b j h) = ∑ i : Fin 32, actB x0 x1 x2 b i j h := by
  have t := trips_eq
  have s0 : acc (F := Ideal) x0 x1 x2 1 (ix3 b j h) = _ := acc_step x0 x1 x2 0 (by omega) b j h
    (fun i' => ⟨i'.val, by have := i'.isLt; omega⟩) (fun i' => by show i'.val = 8 * 0 + i'.val; omega)
  have s1 : acc (F := Ideal) x0 x1 x2 2 (ix3 b j h) = _ := acc_step x0 x1 x2 1 (by omega) b j h
    (fun i' => ⟨8 + i'.val, by have := i'.isLt; omega⟩) (fun i' => by show 8 + i'.val = 8 * 1 + i'.val; omega)
  have s2 : acc (F := Ideal) x0 x1 x2 3 (ix3 b j h) = _ := acc_step x0 x1 x2 2 (by omega) b j h
    (fun i' => ⟨8 + 8 + i'.val, by have := i'.isLt; omega⟩) (fun i' => by show 8 + 8 + i'.val = 8 * 2 + i'.val; omega)
  have s3 : acc (F := Ideal) x0 x1 x2 4 (ix3 b j h) = _ := acc_step x0 x1 x2 3 (by omega) b j h
    (fun i' => ⟨8 + 8 + 8 + i'.val, by have := i'.isLt; omega⟩) (fun i' => by show 8 + 8 + 8 + i'.val = 8 * 3 + i'.val; omega)
  have z : acc (F := Ideal) x0 x1 x2 0 (ix3 b j h) = 0 := pay1_apply b j h
  rw [t, s3, s2, s1, s0, z, zero_add]
  exact (ChunkSum.sum_four_chunks 8 32 rfl fun i => actB x0 x1 x2 b i j h).symm

/-- THE OUTPUT BLOCK at `(b, j, d)`: the specification's result for batch element `b` of the block. -/
theorem block_apply (b : Fin 4) (j : Fin 32) (d : Fin 256) :
    k0_pay3 (F := Ideal) (acc (F := Ideal) x0 x1 x2 k0_t1_loop.trips) x3 x4 (ix3 b j d)
      = out (fun i d => x0 (ix3 b i d)) (fun d h => x1 (ix2 d h)) (fun h => x2 (ix1 h))
          (fun h d => x3 (ix2 h d)) (fun d => x4 (ix1 d)) j d := by
  rw [pay3_apply, ofBits_32]
  refine Eq.trans ?_ (factored_eq _ _ _ _ _ j d)
  refine congrArg (· + ((32 : ℕ) : EReal) * x4 (ix1 d)) (Finset.sum_congr rfl fun h _ => ?_)
  rw [acc_all x0 x1 x2 b j h]

end Cert.KernelIdeal.BlockValue

end
-- ==== Proof.Whole.lean ====
/-
  From blocks to the array, at the ideal instance: after the kernel's run its result array is the specification's
  result of the argument arrays.

  Grid point `t` stages batch rows `4t … 4t+3` of `x` (all of `W1, b1, W2, b2`) and writes back rows `4t … 4t+3`
  of the result: a block's coordinate is always block index × block size + the coordinate inside the block, and the
  block indices are `(t, 0, 0)` for `x` and the result and zero for the weights (decided once over the 32 points).
  So what point `t` writes back is block `t` of the specification's result; the 32 blocks tile the array (the
  point covering batch row `B` is `B / 4`), hence the whole array is the specification's result.
-/
import proofs.«137564_j65609920413983_2_alg».proof.Proof.Gen.KernelIdeal.Value
import proofs.«137564_j65609920413983_2_alg».proof.Proof.Block
import proofs.«137564_j65609920413983_2_alg».proof.Proof.BlockValue

set_option maxRecDepth 16384

noncomputable section

namespace Cert.KernelIdeal.Whole

open Cert.KernelIdeal Cert.KernelIdeal.Gen Cert.KernelIdeal.Value Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification's result of the argument arrays as the region finds them. -/
abbrev spec (c : Dev nD) : S128x32x256.Idx → EReal :=
  result (V m c main_arg0) (V m c main_arg1) (V m c main_arg2) (V m c main_arg3) (V m c main_arg4)

/-- ONE GRID STEP's output block at `(b, j, d)`, over variables: the specification for batch element `b` of the
    staged blocks. -/
theorem point_value (c : Dev nD) (i : grid0.Coords)
    (arg1 : Memref sig .tc .vmem S4x32x256 .f32) (harg1 : arg1.IsWhole) (arg2 : Memref sig .tc .vmem S256x1024 .f32) (harg2 : arg2.IsWhole)
    (arg3 : Memref sig .tc .vmem S1024 .f32) (harg3 : arg3.IsWhole) (arg4 : Memref sig .tc .vmem S1024x256 .f32) (harg4 : arg4.IsWhole)
    (arg5 : Memref sig .tc .vmem S256 .f32) (harg5 : arg5.IsWhole) (arg6 : Memref sig .tc .vmem S4x32x256 .f32) (harg6 : arg6.IsWhole)
    (arg7 : Memref sig .tc .vmem S4x32x1024 .f32) (harg7 : arg7.IsWhole)
    (x0 : FVec Ideal S4x32x256 .f32) (x1 : FVec Ideal S256x1024 .f32) (x2 : FVec Ideal S1024 .f32)
    (x3 : FVec Ideal S1024x256 .f32) (x4 : FVec Ideal S256 .f32) (b : Fin 4) (j : Fin 32) (d : Fin 256) :
    out0_A_5 (F := Ideal) c i arg1 harg1 arg2 harg2 arg3 harg3 arg4 harg4 arg5 harg5 arg6 harg6 arg7 harg7 x0 x1 x2 x3 x4 (ix3 b j d)
      = out (fun i d => x0 (ix3 b i d)) (fun d h => x1 (ix2 d h)) (fun h => x2 (ix1 h))
          (fun h d => x3 (ix2 h d)) (fun d => x4 (ix1 d)) j d := by
  rw [Body.block_eq (F := Ideal)]
  exact BlockValue.block_apply x0 x1 x2 x3 x4 b j d

/-- The printed index maps, decided over the grid: `x` and the result move with the point along the batch axis;
    the weights and biases stay at block zero. -/
theorem idx_facts : ∀ t : Fin cfg0.N,
    win0_5.index t (0 : Fin 3) = t.val ∧ win0_5.index t (1 : Fin 3) = 0 ∧ win0_5.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- Batch row `4t + b` of the array: row `b` of point `t`'s block. -/
abbrev batchRow (t : Fin cfg0.N) (b : Fin 4) : Fin 128 :=
  ⟨4 * t.val + b.val, by have := t.isLt; have : cfg0.N = 32 := N_0; have := b.isLt; omega⟩

theorem blk_x (c : Dev nD) (t : Fin cfg0.N) (b : Fin 4) (i : Fin 32) (d : Fin 256) :
    iblk m c 0 t (ix3 b i d) = V m c main_arg0 (ix3 (batchRow t b) i d) := by
  obtain ⟨-, -, -, e0, e1, e2, -⟩ := idx_facts t
  show V m c main_arg0 (((cfg0.win 0).blk t).view.emb (ix3 b i d)) = V m c main_arg0 (ix3 (batchRow t b) i d)
  refine congrArg (V m c main_arg0) (funext fun a => Fin.ext ?_)
  match a with
  | ⟨0, _⟩ => show win0_0.index t (0 : Fin 3) * 4 + 1 * b.val = 4 * t.val + b.val; omega
  | ⟨1, _⟩ => show win0_0.index t (1 : Fin 3) * 32 + 1 * i.val = i.val; omega
  | ⟨2, _⟩ => show win0_0.index t (2 : Fin 3) * 256 + 1 * d.val = d.val; omega

theorem blk_w1 (c : Dev nD) (t : Fin cfg0.N) (d : Fin 256) (h : Fin 1024) :
    iblk m c 1 t (ix2 d h) = V m c main_arg1 (ix2 d h) := by
  obtain ⟨-, -, -, -, -, -, e0, e1, -⟩ := idx_facts t
  show V m c main_arg1 (((cfg0.win 1).blk t).view.emb (ix2 d h)) = V m c main_arg1 (ix2 d h)
  refine congrArg (V m c main_arg1) (funext fun a => Fin.ext ?_)
  match a with
  | ⟨0, _⟩ => show win0_1.index t (0 : Fin 2) * 256 + 1 * d.val = d.val; omega
  | ⟨1, _⟩ => show win0_1.index t (1 : Fin 2) * 1024 + 1 * h.val = h.val; omega

theorem blk_b1 (c : Dev nD) (t : Fin cfg0.N) (h : Fin 1024) :
    iblk m c 2 t (ix1 h) = V m c main_arg2 (ix1 h) := by
  obtain ⟨-, -, -, -, -, -, -, -, e0, -⟩ := idx_facts t
  show V m c main_arg2 (((cfg0.win 2).blk t).view.emb (ix1 h)) = V m c main_arg2 (ix1 h)
  refine congrArg (V m c main_arg2) (funext fun a => Fin.ext ?_)
  match a with
  | ⟨0, _⟩ => show win0_2.index t (0 : Fin 1) * 1024 + 1 * h.val = h.val; omega

theorem blk_w2 (c : Dev nD) (t : Fin cfg0.N) (h : Fin 1024) (d : Fin 256) :
    iblk m c 3 t (ix2 h d) = V m c main_arg3 (ix2 h d) := by
  obtain ⟨-, -, -, -, -, -, -, -, -, e0, e1, -⟩ := idx_facts t
  show V m c main_arg3 (((cfg0.win 3).blk t).view.emb (ix2 h d)) = V m c main_arg3 (ix2 h d)
  refine congrArg (V m c main_arg3) (funext fun a => Fin.ext ?_)
  match a with
  | ⟨0, _⟩ => show win0_3.index t (0 : Fin 2) * 1024 + 1 * h.val = h.val; omega
  | ⟨1, _⟩ => show win0_3.index t (1 : Fin 2) * 256 + 1 * d.val = d.val; omega

theorem blk_b2 (c : Dev nD) (t : Fin cfg0.N) (d : Fin 256) :
    iblk m c 4 t (ix1 d) = V m c main_arg4 (ix1 d) := by
  obtain ⟨-, -, -, -, -, -, -, -, -, -, -, e0⟩ := idx_facts t
  show V m c main_arg4 (((cfg0.win 4).blk t).view.emb (ix1 d)) = V m c main_arg4 (ix1 d)
  refine congrArg (V m c main_arg4) (funext fun a => Fin.ext ?_)
  match a with
  | ⟨0, _⟩ => show win0_4.index t (0 : Fin 1) * 256 + 1 * d.val = d.val; omega

/-- Where the result's block places `(b, j, d)`: batch row `4t + b`. -/
theorem emb_out (t : Fin cfg0.N) (b : Fin 4) (j : Fin 32) (d : Fin 256) :
    ((cfg0.win 5).blk t).view.emb (ix3 b j d) = ix3 (batchRow t b) j d := by
  obtain ⟨e0, e1, e2, -⟩ := idx_facts t
  refine funext fun a => Fin.ext ?_
  match a with
  | ⟨0, _⟩ => show win0_5.index t (0 : Fin 3) * 4 + 1 * b.val = 4 * t.val + b.val; omega
  | ⟨1, _⟩ => show win0_5.index t (1 : Fin 3) * 32 + 1 * j.val = j.val; omega
  | ⟨2, _⟩ => show win0_5.index t (2 : Fin 3) * 256 + 1 * d.val = d.val; omega

/-- WHAT POINT `t` WRITES BACK is block `t` of the specification's result. -/
theorem flushed_eq (c : Dev nD) (t : Fin cfg0.N) :
    (dats m 0 c).flushed 5 t = ((cfg0.win 5).blk t).view.read (Elt Ideal) (spec m c) := by
  rw [flushed5_A]
  funext y
  obtain ⟨b, j, d, rfl⟩ : ∃ (b : Fin 4) (j : Fin 32) (d : Fin 256), y = ix3 b j d := ⟨y 0, y 1, y 2, eq_ix3 y⟩
  show out0_A_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _)
      (iblk m c 0 t) (iblk m c 1 t) (iblk m c 2 t) (iblk m c 3 t) (iblk m c 4 t) (ix3 b j d)
    = spec m c (((cfg0.win 5).blk t).view.emb (ix3 b j d))
  refine (point_value c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _)
      (iblk m c 0 t) (iblk m c 1 t) (iblk m c 2 t) (iblk m c 3 t) (iblk m c 4 t) b j d).trans ?_
  rw [emb_out]
  have h0 : (fun (i : Fin 32) (d : Fin 256) => iblk m c 0 t (ix3 b i d)) = fun i d => V m c main_arg0 (ix3 (batchRow t b) i d) :=
    funext fun i => funext fun d => blk_x m c t b i d
  have h1 : (fun (d : Fin 256) (h : Fin 1024) => iblk m c 1 t (ix2 d h)) = fun d h => V m c main_arg1 (ix2 d h) :=
    funext fun d => funext fun h => blk_w1 m c t d h
  have h2 : (fun (h : Fin 1024) => iblk m c 2 t (ix1 h)) = fun h => V m c main_arg2 (ix1 h) :=
    funext fun h => blk_b1 m c t h
  have h3 : (fun (h : Fin 1024) (d : Fin 256) => iblk m c 3 t (ix2 h d)) = fun h d => V m c main_arg3 (ix2 h d) :=
    funext fun h => funext fun d => blk_w2 m c t h d
  have h4 : (fun (d : Fin 256) => iblk m c 4 t (ix1 d)) = fun d => V m c main_arg4 (ix1 d) :=
    funext fun d => blk_b2 m c t d
  show out _ _ _ _ _ j d = resultAt (V m c main_arg0) (V m c main_arg1) (V m c main_arg2) (V m c main_arg3) (V m c main_arg4)
    (batchRow t b) j d
  unfold resultAt
  rw [h0, h1, h2, h3, h4]

/-- An index of the result array is in point `t`'s block iff each coordinate is in the block's range on its axis. -/
theorem mem_blk (t : Fin cfg0.N) (i : S128x32x256.Idx) :
    i ∈ ((cfg0.win 5).blk t).view.set ↔ ∀ a : Fin 3, win0_5.index t a * S4x32x256.size a ≤ (i a).val
      ∧ (i a).val < win0_5.index t a * S4x32x256.size a + S4x32x256.size a := by
  show i ∈ ((View.whole main_v0).slice (win0_5.rect t)).set ↔ _
  rw [View.set_slice_whole, Rect.mem_set_unit]
  exact Iff.rfl

/-- The blocks tile the array: batch row `B` is in the block of point `B / 4`. -/
theorem cover (i : S128x32x256.Idx) : ∃ t : Fin cfg0.N, (cfg0.win 5).flush t = true ∧ i ∈ ((cfg0.win 5).blk t).view.set := by
  have hN : cfg0.N = 32 := N_0
  have hi0 : (i 0).val < 128 := (i 0).isLt
  have hi1 : (i 1).val < 32 := (i 1).isLt
  have hi2 : (i 2).val < 256 := (i 2).isLt
  let t : Fin cfg0.N := ⟨(i 0).val / 4, by omega⟩
  have ht : t.val = (i 0).val / 4 := rfl
  obtain ⟨e0, e1, e2, -⟩ := idx_facts t
  refine ⟨t, flush0_5 t, ?_⟩
  rw [mem_blk]
  intro a
  match a with
  | ⟨0, _⟩ => show win0_5.index t (0 : Fin 3) * 4 ≤ (i 0).val ∧ (i 0).val < win0_5.index t (0 : Fin 3) * 4 + 4; omega
  | ⟨1, _⟩ => show win0_5.index t (1 : Fin 3) * 32 ≤ (i 1).val ∧ (i 1).val < win0_5.index t (1 : Fin 3) * 32 + 32; omega
  | ⟨2, _⟩ => show win0_5.index t (2 : Fin 3) * 256 ≤ (i 2).val ∧ (i 2).val < win0_5.index t (2 : Fin 3) * 256 + 256; omega

/-- THE RESULT ARRAY after the run is the specification's result of the argument arrays. -/
theorem final (c : Dev nD) : (dats m 0 c).arrAt 5 cfg0.N = spec m c :=
  (dats m 0 c).arrAt_eq_of_cover 5 (spec m c) (fun t _ => flushed_eq m c t) cover

/-- THE KERNEL'S RUN, READ: every weakly fair execution terminates with the result array at the specification's
    result of the argument arrays, the arguments unchanged. -/
theorem run : θ_run defs (onTc (τ := τ) (main (F := Ideal))) ⟨m, fun _ => 0, ρ⟩ fun r => ∀ c : Dev nD,
      r.2.mem ((c : Thread nD τ).loc main_v0)
          = result (m ((c : Thread nD τ).loc main_arg0)) (m ((c : Thread nD τ).loc main_arg1)) (m ((c : Thread nD τ).loc main_arg2))
              (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.RefValue.lean ====
/-
  The reference computes the specification: its last stage (the sum over `i` of the second layer applied to the
  rectified first layer of the pairwise products), read at `(B, j, d)` one operation at a time, is the
  specification's result for batch element `B`.

  The generated read-at-an-index lemmas compose the operations' index maps; each composition is identified with
  a plain coordinate constructor below (the broadcasts drop the axes they add, the two products contract their
  last / first axes, the sum runs over the second axis).
-/
import proofs.«137564_j65609920413983_2_alg».proof.Proof.Gen.ReferenceIdeal.Read
import proofs.«137564_j65609920413983_2_alg».proof.Proof.Spec

noncomputable section

namespace Cert.ReferenceIdeal.RefValue

open Cert.ReferenceIdeal Cert.ReferenceIdeal.Gen Cert.ReferenceIdeal.Read Cert.Spec
open Idealize.ShloMosaic Idealize.ShloMosaic.ValueIdx
open scoped BigOperators

variable (B : Fin 128) (j : Fin 32) (d : Fin 256) (i : Fin 32) (h : Fin 1024) (d' : Fin 256)

/-- Row `i` of the pair, feature `d'`. -/
theorem e_xi : idx_main_v0 (idx_main_v2 (lidx_main_v5 (lidx_main_v10 (idx_main_v14 (ix3 B j d) i) h) d')) = ix3 B i d' :=
  funext fun a => Fin.ext (by match a with | ⟨0, _⟩ => rfl | ⟨1, _⟩ => rfl | ⟨2, _⟩ => rfl)
/-- Row `j` of the pair, feature `d'`. -/
theorem e_xj : idx_main_v1 (idx_main_v3 (lidx_main_v5 (lidx_main_v10 (idx_main_v14 (ix3 B j d) i) h) d')) = ix3 B j d' :=
  funext fun a => Fin.ext (by match a with | ⟨0, _⟩ => rfl | ⟨1, _⟩ => rfl | ⟨2, _⟩ => rfl)
theorem e_w1 : ridx_main_v5 (lidx_main_v10 (idx_main_v14 (ix3 B j d) i) h) d' = ix2 d' h :=
  funext fun a => Fin.ext (by match a with | ⟨0, _⟩ => rfl | ⟨1, _⟩ => rfl)
theorem e_b1 : idx_main_v6 (idx_main_v7 (lidx_main_v10 (idx_main_v14 (ix3 B j d) i) h)) = ix1 h :=
  funext fun a => Fin.ext (by match a with | ⟨0, _⟩ => rfl)
theorem e_w2 : ridx_main_v10 (idx_main_v14 (ix3 B j d) i) h = ix2 h d :=
  funext fun a => Fin.ext (by match a with | ⟨0, _⟩ => rfl | ⟨1, _⟩ => rfl)
theorem e_b2 : idx_main_v11 (idx_main_v12 (idx_main_v14 (ix3 B j d) i)) = ix1 d :=
  funext fun a => Fin.ext (by match a with | ⟨0, _⟩ => rfl)

/-- THE REFERENCE IS THE SPECIFICATION, index by index. -/
theorem ref_eq (x0 : (⟨S128x32x256, .f32⟩ : BufTy).Contents (Elt Ideal)) (x1 : (⟨S256x1024, .f32⟩ : BufTy).Contents (Elt Ideal))
    (x2 : (⟨S1024, .f32⟩ : BufTy).Contents (Elt Ideal)) (x3 : (⟨S1024x256, .f32⟩ : BufTy).Contents (Elt Ideal))
    (x4 : (⟨S256, .f32⟩ : BufTy).Contents (Elt Ideal)) :
    val_main_v14 (F := Ideal) x0 x1 x2 x3 x4 = result x0 x1 x2 x3 x4 := by
  funext idx
  obtain ⟨B, j, d, rfl⟩ : ∃ (B : Fin 128) (j : Fin 32) (d : Fin 256), idx = ix3 B j d := ⟨idx 0, idx 1, idx 2, eq_ix3 idx⟩
  rw [val_main_v14_apply, result_ix3]
  simp only [val_main_v13_apply, val_main_v10_apply, val_main_v9_apply, val_main_v8_apply, val_main_v5_apply,
    val_main_v4_apply, val_main_v2_apply, val_main_v0_apply, val_main_v3_apply, val_main_v1_apply,
    val_main_v7_apply, val_main_v6_apply, val_main_call0_v0_apply, val_main_call0_cst_apply,
    val_main_v12_apply, val_main_v11_apply, val_main_cst_apply,
    e_xi, e_xj, e_w1, e_b1, e_w2, e_b2,
    Ideal.addf_def, Ideal.mulf_def, Ideal.maximumf_def, Ideal.ofBits_def, Ideal.ofBits_zero_f32]
  rfl

end Cert.ReferenceIdeal.RefValue

end
-- ==== Proof.lean ====
/- The pairwise two-layer perceptron, summed over the first index of the pair: the kernel against its reference.

   For a batch element with rows `x_i` (`i < 32`), the reference forms every product `x_i ⊙ x_j`, applies
   `h ↦ relu (· W1 + b1)` and `· W2 + b2` to each, and sums the results over `i`. The kernel, for four batch
   elements per grid step, sums the rectified hidden activations over `i` FIRST (eight rows of `i` per trip of a
   counted loop, accumulated in a scratch block that is zero-filled at the start of every step), and only then applies
   `W2` once and adds `32 · b2`.

   At the ideal instance (floats are extended reals, a change of float format is the identity, every sum and product
   is exact) both are one function of the argument arrays, index by index — `Cert.Spec.result`. The law between the two
   arrangements is `(Σ_h (Σ_i a_ih) · w_h) + 32 · b = 0 + Σ_i ((Σ_h a_ih · w_h) + b)`; on the extended reals
   multiplication distributes over a sum of NON-NEGATIVE terms, and the rectified activations `a_ih` are non-negative,
   so the law holds whatever the inputs are: the finiteness precondition is never opened.

   The modules: Proof/LibSumNonneg (the law), Proof/Spec (the specification), Proof/Trips and Proof/Block (what one grid
   step leaves in its output block, through the loop), Proof/Layout and Proof/Payload (the body's arithmetic read at
   an index), Proof/BlockValue (the block is the specification), Proof/Whole (the blocks tile the result array),
   Proof/RefValue (the reference is the specification). The frames are the generated ones; the kernel and its
   idealization are the same text, so nothing is owed for the idealization. -/
import proofs.«137564_j65609920413983_2_alg».proof.Defs
import proofs.«137564_j65609920413983_2_alg».proof.Proof.Gen.Kernel
import proofs.«137564_j65609920413983_2_alg».proof.Proof.Gen.Kernel.Skeleton
import proofs.«137564_j65609920413983_2_alg».proof.Proof.Gen.Kernel.Loops
import proofs.«137564_j65609920413983_2_alg».proof.Proof.Gen.Kernel.Launch
import proofs.«137564_j65609920413983_2_alg».proof.Proof.Gen.Kernel.Points
import proofs.«137564_j65609920413983_2_alg».proof.Proof.Gen.Kernel.Frame
import proofs.«137564_j65609920413983_2_alg».proof.Proof.Gen.KernelIdeal
import proofs.«137564_j65609920413983_2_alg».proof.Proof.Gen.KernelIdeal.Skeleton
import proofs.«137564_j65609920413983_2_alg».proof.Proof.Gen.KernelIdeal.Loops
import proofs.«137564_j65609920413983_2_alg».proof.Proof.Gen.KernelIdeal.Launch
import proofs.«137564_j65609920413983_2_alg».proof.Proof.Gen.KernelIdeal.Points
import proofs.«137564_j65609920413983_2_alg».proof.Proof.Gen.KernelIdeal.Frame
import proofs.«137564_j65609920413983_2_alg».proof.Proof.Gen.ReferenceIdeal
import proofs.«137564_j65609920413983_2_alg».proof.Proof.Gen.Pre_finite_inputs
import proofs.«137564_j65609920413983_2_alg».proof.Proof.Gen.KernelIdeal.Value
import proofs.«137564_j65609920413983_2_alg».proof.Proof.Gen.ReferenceIdeal.Run
import proofs.«137564_j65609920413983_2_alg».proof.Proof.Gen.ReferenceIdeal.Read
import proofs.«137564_j65609920413983_2_alg».proof.Proof.Whole
import proofs.«137564_j65609920413983_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged (the generated frame). -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference is a straight line of host operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance, from memories that agree on the arguments, the kernel's result array and the reference's
    are both the specification's result of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
